-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3 : Shape := ⟨2, ![1024, 3]⟩
abbrev S1024 : Shape := ⟨1, ![1024]⟩
abbrev S32x32x32x3 : Shape := ⟨4, ![32, 32, 32, 3]⟩
abbrev S1 : Shape := ⟨1, ![1]⟩
abbrev S_ : Shape := ⟨0, ![]⟩

class Facts : Prop where
  bcast_S_S1024x3 : S_.BroadcastsInDim S1024x3 (![] : Fin 0 → Fin S1024x3.rank)
  reducesTo_S1024x3_S_d0_1 : S1024x3.ReducesTo [0, 1] S_
  h_S_ : 0 < S_.numel
  bcast_S_S1024 : S_.BroadcastsInDim S1024 (![] : Fin 0 → Fin S1024.rank)
  reducesTo_S1024_S_d0 : S1024.ReducesTo [0] S_
  bcast_S_S32x32x32x3 : S_.BroadcastsInDim S32x32x32x3 (![] : Fin 0 → Fin S32x32x32x3.rank)
  reducesTo_S32x32x32x3_S_d0_1_2_3 : S32x32x32x3.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_arg1 : FVec F S1024 .f32) (main_arg3 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S1024 .f32 := broadcastInDim S1024 ![] bcast_S_S1024 main_cst_6
  let main_v20 : IVec S1024 1 := cmpf .une main_arg1 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v18 main_v21
  let main_cst_8 : FVec F S_ .f32 := constant S_ .f32 0x00000000#32
  let main_v23 : FVec F S1 .f32 := broadcastInDim S1 ![] bcast_S_S1 main_cst_8
  let main_v24 : IVec S1 1 := cmpf .une main_arg3 main_v23
  let main_c_9 : IVec S_ 1 := constantI S_ 1 1#1
  let main_v25 : IVec S_ 1 := (fun x v => Host.reduce IntOp.andi x v reducesTo_S1_S_d0 h_S_) main_v24 main_c_9
  let main_v26 : IVec S_ 1 := andi main_v22 main_v25
  main_v26

def fn {F : FTy → Type} [FloatOps F] (main_arg0 : FVec F S1024x3 .f32) (main_arg1 : FVec F S1024 .f32) (main_arg2 : FVec F S32x32x32x3 .f32) (main_arg3 : FVec F S1 .f32) : IVec S_ 1 :=
  let main_v0 : FVec F S1024x3 .f32 := Host.absf main_arg0
  let main_cst : FVec F S_ .f32 := constant S_ .f32 0x7F800000#32
  let main_v1 : FVec F S1024x3 .f32 := broadcastInDim S1024x3 ![] bcast_S_S1024x3 main_cst
  let main_v2 : IVec S1024x3 1 := cmpf .olt main_v0 main_v1
  let main_c : IVec S_ 1 := constantI S_ 1 1#1
  let main_v3 : IVec S_ 1 := (fun x v => Host.reduce IntOp.andi x v reducesTo_S1024x3_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S32x32x32x3 .f32 := Host.absf main_arg2
  let main_cst_2 : FVec F S_ .f32 := constant S_ .f32 0x7F800000#32
  let main_v10 : FVec F S32x32x32x3 .f32 := broadcastInDim S32x32x32x3 ![] bcast_S_S32x32x32x3 main_cst_2
  let main_v11 : IVec S32x32x32x3 1 := cmpf .olt main_v9 main_v10
  let main_c_3 : IVec S_ 1 := constantI S_ 1 1#1
  let main_v12 : IVec S_ 1 := (fun x v => Host.reduce IntOp.andi x v reducesTo_S32x32x32x3_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg3 main_v13 main_v16
-- ==== Kernel.lean ====
abbrev S1024x3 : Shape := ⟨2, ![1024, 3]⟩
abbrev S1024 : Shape := ⟨1, ![1024]⟩
abbrev S32x32x32x3 : Shape := ⟨4, ![32, 32, 32, 3]⟩
abbrev S1 : Shape := ⟨1, ![1]⟩
abbrev S_ : Shape := ⟨0, ![]⟩
abbrev S1024x1 : Shape := ⟨2, ![1024, 1]⟩
abbrev S1x1024x1x3 : Shape := ⟨4, ![1, 1024, 1, 3]⟩
abbrev S1x1024x1024x3 : Shape := ⟨4, ![1, 1024, 1024, 3]⟩
abbrev S1024x3072 : Shape := ⟨2, ![1024, 3072]⟩
abbrev S32x3072 : Shape := ⟨2, ![32, 3072]⟩
abbrev S1024x32x3072 : Shape := ⟨3, ![1024, 32, 3072]⟩
abbrev S32x1 : Shape := ⟨2, ![32, 1]⟩
abbrev S32x32x3072 : Shape := ⟨3, ![32, 32, 3072]⟩
abbrev S32 : Shape := ⟨1, ![32]⟩
abbrev S8x3072 : Shape := ⟨2, ![8, 3072]⟩
abbrev S1x8x3072 : Shape := ⟨3, ![1, 8, 3072]⟩
abbrev S32x1x3072 : Shape := ⟨3, ![32, 1, 3072]⟩
abbrev S32x8x3072 : Shape := ⟨3, ![32, 8, 3072]⟩
abbrev S32x1x1 : Shape := ⟨3, ![32, 1, 1]⟩
abbrev S1024x32x32x32x3 : Shape := ⟨5, ![1024, 32, 32, 32, 3]⟩

abbrev nBuf : Space → Nat
  | .hbm => 21
  | .vmem => 7
  | .smem => 0
  | _ => 0

abbrev bufTy : (tb : Table) → Fin (tcTables nBuf tb) → BufTy
  | .hbm, ⟨0, _⟩ => ⟨S1024x3, .f32⟩
  | .hbm, ⟨1, _⟩ => ⟨S1024, .f32⟩
  | .hbm, ⟨2, _⟩ => ⟨S32x32x32x3, .f32⟩
  | .hbm, ⟨3, _⟩ => ⟨S1, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1x1024x1x3, .f32⟩
  | .hbm, ⟨16, _⟩ => ⟨S1x1024x1024x3, .f32⟩
  | .hbm, ⟨17, _⟩ => ⟨S1024x3072, .f32⟩
  | .hbm, ⟨18, _⟩ => ⟨S32x3072, .f32⟩
  | .hbm, ⟨19, _⟩ => ⟨S1024x32x3072, .f32⟩
  | .hbm, ⟨20, _⟩ => ⟨S1024x32x32x32x3, .f32⟩
  | .local _ .vmem, ⟨0, _⟩ => ⟨S32x3072, .f32⟩
  | .local _ .vmem, ⟨1, _⟩ => ⟨S32x3072, .f32⟩
  | .local _ .vmem, ⟨2, _⟩ => ⟨S32x1, .f32⟩
  | .local _ .vmem, ⟨3, _⟩ => ⟨S32x1, .f32⟩
  | .local _ .vmem, ⟨4, _⟩ => ⟨S32x3072, .f32⟩
  | .local _ .vmem, ⟨5, _⟩ => ⟨S32x32x3072, .f32⟩
  | .local _ .vmem, ⟨6, _⟩ => ⟨S32x32x3072, .f32⟩
  | _, _ => ⟨S1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c8_i32 : BitVec 32 := 8#32
  let v4 : BitVec 32 := Scalar.muli c0_i32 c8_i32
  v4
def k0_off1 (c0_i32 : BitVec 32) : Fin 2 → Nat :=
  let c8_i32 : BitVec 32 := 8#32
  let v4 : BitVec 32 := Scalar.muli c0_i32 c8_i32
  let v5 : BitVec 32 := v4
  let v6 : Index := Scalar.indexCast v5
  let c0_3 : Index := 0#32
  ![v6.toNat, 0]
def k0_off2 (c0_i32 : BitVec 32) : Fin 3 → Nat :=
  let c0_4 : Index := 0#32
  let c8_i32 : BitVec 32 := 8#32
  let v4 : BitVec 32 := Scalar.muli c0_i32 c8_i32
  let v5 : BitVec 32 := v4
  let v20 : Index := Scalar.indexCast v5
  let c0_5 : Index := 0#32
  ![0, v20.toNat, 0]
def k0_mult2 : BitVec 32 :=
  let c1_i32 : BitVec 32 := 1#32
  let c8_i32_6 : BitVec 32 := 8#32
  let v22 : BitVec 32 := Scalar.muli c1_i32 c8_i32_6
  v22
def k0_mult3 : BitVec 32 :=
  let c2_i32 : BitVec 32 := 2#32
  let c8_i32_11 : BitVec 32 := 8#32
  let v40 : BitVec 32 := Scalar.muli c2_i32 c8_i32_11
  v40
def k0_mult4 : BitVec 32 :=
  let c3_i32 : BitVec 32 := 3#32
  let c8_i32_16 : BitVec 32 := 8#32
  let v58 : BitVec 32 := Scalar.muli c3_i32 c8_i32_16
  v58
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x32x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024 : S_.BroadcastsInDim S1024 (![] : Fin 0 → Fin S1024.rank)
  shapeCasts_S1_S_ : S1.ShapeCasts S_
  shapeCasts_S1024_S1024x1 : S1024.ShapeCasts S1024x1
  shapeCasts_S1024x3_S1x1024x1x3 : S1024x3.ShapeCasts S1x1024x1x3
  bcast_S1x1024x1x3_S1x1024x1024x3_0_1_2_3 : S1x1024x1x3.BroadcastsInDim S1x1024x1024x3 (![0, 1, 2, 3] : Fin 4 → Fin S1x1024x1024x3.rank)
  shapeCasts_S1x1024x1024x3_S1024x3072 : S1x1024x1024x3.ShapeCasts S1024x3072
  shapeCasts_S32x32x32x3_S32x3072 : S32x32x32x3.ShapeCasts S32x3072
  inb_S32x3072_S32x3072_0_0 : ∀ a, (![0, 0] : Fin 2 → Nat) a + S32x3072.size a ≤ S32x3072.size a
  h_S32x3072 : 0 < S32x3072.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x1_S32 : S32x1.ShapeCasts S32
  h_S8x3072 : 0 < S8x3072.numel
  shapeCasts_S8x3072_S8x3072 : S8x3072.ShapeCasts S8x3072
  shapeCasts_S8x3072_S1x8x3072 : S8x3072.ShapeCasts S1x8x3072
  shapeCasts_S32x3072_S32x1x3072 : S32x3072.ShapeCasts S32x1x3072
  broadcasts_S1x8x3072_S32x8x3072 : S1x8x3072.Broadcasts S32x8x3072
  broadcasts_S32x1x3072_S32x8x3072 : S32x1x3072.Broadcasts S32x8x3072
  shapeCasts_S32_S32x1x1 : S32.ShapeCasts S32x1x1
  broadcasts_S32x1x1_S32x8x3072 : S32x1x1.Broadcasts S32x8x3072
  h_S32x8x3072 : 0 < S32x8x3072.numel
  shapeCasts_S1024x32x3072_S1024x32x32x32x3 : S1024x32x3072.ShapeCasts S1024x32x32x32x3
  hrank0 : 0 < grid0.rank
  k0_mult1_dvd : 8 ∣ k0_mult1.toNat
  k0_off1_inb : ∀ (r : Fin 4), ∀ a, (k0_off1 (BitVec.ofNat 32 r.val)) a + S8x3072.size a ≤ S32x3072.size a
  k0_off2_inb : ∀ (r : Fin 4), ∀ a, (k0_off2 (BitVec.ofNat 32 r.val)) a + S32x8x3072.size a ≤ S32x32x3072.size a
  k0_mult2_dvd : 8 ∣ k0_mult2.toNat
  k0_mult3_dvd : 8 ∣ k0_mult3.toNat
  k0_mult4_dvd : 8 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3072.size a ≤ S1024x3072.size a
  hwx0_0 : ∀ i : grid0.Coords, EltTy.bits .f32 = 32 ∨ (Rect.block (s := S1024x3072) S32x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S1024x1.size a
  hwx0_1 : ∀ i : grid0.Coords, EltTy.bits .f32 = 32 ∨ (Rect.block (s := S1024x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x3072.size a ≤ S32x3072.size a
  hwx0_2 : ∀ i : grid0.Coords, EltTy.bits .f32 = 32 ∨ (Rect.block (s := S32x3072) S32x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32x3072.size a ≤ S1024x32x3072.size a
  hwx0_3 : ∀ i : grid0.Coords, EltTy.bits .f32 = 32 ∨ (Rect.block (s := S1024x32x3072) S32x32x3072.size (cc0_transform_3 i) (hinb0_3 i)).WholeWords (EltTy.packing .f32)

variable [Facts₀]

abbrev win0_0 : Pipeline.Window sig grid0 :=
  Pipeline.Window.ofSpec (Memref.whole main_v11) S32x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x32x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x3 : Shape := ⟨2, ![1024, 3]⟩
abbrev S1024 : Shape := ⟨1, ![1024]⟩
abbrev S32x32x32x3 : Shape := ⟨4, ![32, 32, 32, 3]⟩
abbrev S1 : Shape := ⟨1, ![1]⟩
abbrev S1024x1x1x1x1 : Shape := ⟨5, ![1024, 1, 1, 1, 1]⟩
abbrev S_ : Shape := ⟨0, ![]⟩
abbrev S1x32x32x32x3 : Shape := ⟨5, ![1, 32, 32, 32, 3]⟩
abbrev S1024x1x1x1x3 : Shape := ⟨5, ![1024, 1, 1, 1, 3]⟩
abbrev S1024x32x32x32x3 : Shape := ⟨5, ![1024, 32, 32, 32, 3]⟩

abbrev nBuf : Space → Nat
  | .hbm => 25
  | .vmem => 0
  | .smem => 0
  | _ => 0

abbrev bufTy : (tb : Table) → Fin (tcTables nBuf tb) → BufTy
  | .hbm, ⟨0, _⟩ => ⟨S1024x3, .f32⟩
  | .hbm, ⟨1, _⟩ => ⟨S1024, .f32⟩
  | .hbm, ⟨2, _⟩ => ⟨S32x32x32x3, .f32⟩
  | .hbm, ⟨3, _⟩ => ⟨S1, .f32⟩
  | .hbm, ⟨4, _⟩ => ⟨S1024x1x1x1x1, .f32⟩
  | .hbm, ⟨5, _⟩ => ⟨S_, .f32⟩
  | .hbm, ⟨6, _⟩ => ⟨S1024x1x1x1x1, .f32⟩
  | .hbm, ⟨7, _⟩ => ⟨S1024x1x1x1x1, .f32⟩
  | .hbm, ⟨8, _⟩ => ⟨S_, .f32⟩
  | .hbm, ⟨9, _⟩ => ⟨S1024x1x1x1x1, .f32⟩
  | .hbm, ⟨10, _⟩ => ⟨S1024x1x1x1x1, .f32⟩
  | .hbm, ⟨11, _⟩ => ⟨S1x32x32x32x3, .f32⟩
  | .hbm, ⟨12, _⟩ => ⟨S1024x1x1x1x3, .f32⟩
  | .hbm, ⟨13, _⟩ => ⟨S1024x32x32x32x3, .f32⟩
  | .hbm, ⟨14, _⟩ => ⟨S1024x32x32x32x3, .f32⟩
  | .hbm, ⟨15, _⟩ => ⟨S1024x32x32x32x3, .f32⟩
  | .hbm, ⟨16, _⟩ => ⟨S1024x32x32x32x3, .f32⟩
  | .hbm, ⟨17, _⟩ => ⟨S1024x32x32x32x3, .f32⟩
  | .hbm, ⟨18, _⟩ => ⟨S_, .f32⟩
  | .hbm, ⟨19, _⟩ => ⟨S1024x32x32x32x3, .f32⟩
  | .hbm, ⟨20, _⟩ => ⟨S1024x32x32x32x3, .f32⟩
  | .hbm, ⟨21, _⟩ => ⟨S1024x32x32x32x3, .f32⟩
  | .hbm, ⟨22, _⟩ => ⟨S_, .f32⟩
  | .hbm, ⟨23, _⟩ => ⟨S1024x32x32x32x3, .f32⟩
  | .hbm, ⟨24, _⟩ => ⟨S1024x32x32x32x3, .f32⟩
  | _, _ => ⟨S1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1024_S1024x1x1x1x1_0 : S1024.BroadcastsInDim S1024x1x1x1x1 (![0] : Fin 1 → Fin S1024x1x1x1x1.rank)
  bcast_S_S1024x1x1x1x1 : S_.BroadcastsInDim S1024x1x1x1x1 (![] : Fin 0 → Fin S1024x1x1x1x1.rank)
  shapeCasts_S1_S_ : S1.ShapeCasts S_
  bcast_S32x32x32x3_S1x32x32x32x3_1_2_3_4 : S32x32x32x3.BroadcastsInDim S1x32x32x32x3 (![1, 2, 3, 4] : Fin 4 → Fin S1x32x32x32x3.rank)
  bcast_S1024x3_S1024x1x1x1x3_0_4 : S1024x3.BroadcastsInDim S1024x1x1x1x3 (![0, 4] : Fin 2 → Fin S1024x1x1x1x3.rank)
  bcast_S1x32x32x32x3_S1024x32x32x32x3_0_1_2_3_4 : S1x32x32x32x3.BroadcastsInDim S1024x32x32x32x3 (![0, 1, 2, 3, 4] : Fin 5 → Fin S1024x32x32x32x3.rank)
  bcast_S1024x1x1x1x3_S1024x32x32x32x3_0_1_2_3_4 : S1024x1x1x1x3.BroadcastsInDim S1024x32x32x32x3 (![0, 1, 2, 3, 4] : Fin 5 → Fin S1024x32x32x32x3.rank)
  bcast_S1024x1x1x1x1_S1024x32x32x32x3_0_1_2_3_4 : S1024x1x1x1x1.BroadcastsInDim S1024x32x32x32x3 (![0, 1, 2, 3, 4] : Fin 5 → Fin S1024x32x32x32x3.rank)
  bcast_S_S1024x32x32x32x3 : S_.BroadcastsInDim S1024x32x32x32x3 (![] : Fin 0 → Fin S1024x32x32x32x3.rank)

variable [Facts₀]

class Facts : Prop extends Facts₀ where

variable [Facts]
-- ==== Proof.Spec.lean ====
/-
  The Gaussian log-density of every grid coordinate under every point, as a function of the four argument arrays,
  and the one law that joins its two spellings.

  For a point `n` with confidence `conf n` and a voxel pitch `pitch`, the standard deviation is
  `s n = (1 · conf n) · pitch`. For a voxel `(x, y, z)` and a channel `c` the difference is
  `d = coords (x, y, z, c) − pts (n, c)`. The value at `(n, x, y, z, c)` is `−½ · (d / s)² − h` with `h` the
  half logarithm of `2π` as a binary literal.

  One spelling divides first and squares after: `((−½) · (d / s)) · (d / s) − h`. The other folds the division into
  a per-point factor `k n = (−½) / (s n · s n)` and multiplies: `((k n) · d) · d − h`. On the extended reals
  the two agree when every quantity is a real number and `s n ≠ 0`: then every quotient is a real quotient and
  the identity `(a / s²) · d · d = (a · (d / s)) · (d / s)` holds in the field of reals. (With `s = 0` and `d = 0`
  they differ: the first has the junk quotient `0 / 0 = ⊥`, the second `(−½ / 0) · 0 · 0 = 0`.)
-/
import Idealize.ShloMosaic.PureOps.Ideal
import Idealize.ShloMosaic.Lib.ValueIdx

noncomputable section

namespace Cert.Splat

open Idealize.ShloMosaic Idealize.ShloMosaic.ValueIdx

/-- The literal `1.0`. -/
abbrev lit_one : EReal := Ideal.ofBits .f32 0x3F800000#32
/-- The literal `−0.5`. -/
abbrev lit_mhalf : EReal := Ideal.ofBits .f32 0xBF000000#32
/-- The literal nearest `½ · log (2π)`. -/
abbrev lit_h : EReal := Ideal.ofBits .f32 0x3F6B3F8E#32

abbrev SPts : Shape := ⟨2, ![1024, 3]⟩
abbrev SConf : Shape := ⟨1, ![1024]⟩
abbrev SCoords : Shape := ⟨4, ![32, 32, 32, 3]⟩
abbrev SPitch : Shape := ⟨1, ![1]⟩
abbrev SOut : Shape := ⟨5, ![1024, 32, 32, 32, 3]⟩

/-- The standard deviation of point `n`: `(1 · conf n) · pitch`. -/
def scale (conf : SConf.Idx → EReal) (pitch : SPitch.Idx → EReal) (n : Fin 1024) : EReal :=
  (lit_one * conf (ix1 n)) * pitch (ix1 (0 : Fin 1))

/-- The difference between a grid coordinate and a point's coordinate, channel by channel. -/
def diff (pts : SPts.Idx → EReal) (coords : SCoords.Idx → EReal)
    (n : Fin 1024) (x y z : Fin 32) (c : Fin 3) : EReal :=
  coords (ix4 x y z c) - pts (ix2 n c)

/-- Divide, then square: `((−½) · (d / s)) · (d / s) − h`. -/
def quotientForm (pts : SPts.Idx → EReal) (conf : SConf.Idx → EReal) (coords : SCoords.Idx → EReal)
    (pitch : SPitch.Idx → EReal) : SOut.Idx → EReal := fun i =>
  (lit_mhalf * Ideal.div (diff pts coords (i 0) (i 1) (i 2) (i 3) (i 4)) (scale conf pitch (i 0)))
      * Ideal.div (diff pts coords (i 0) (i 1) (i 2) (i 3) (i 4)) (scale conf pitch (i 0)) - lit_h

/-- Fold the division into a per-point factor, then multiply: `(((−½) / (s · s)) · d) · d − h`. -/
def factorForm (pts : SPts.Idx → EReal) (conf : SConf.Idx → EReal) (coords : SCoords.Idx → EReal)
    (pitch : SPitch.Idx → EReal) : SOut.Idx → EReal := fun i =>
  (Ideal.div lit_mhalf (scale conf pitch (i 0) * scale conf pitch (i 0))
      * diff pts coords (i 0) (i 1) (i 2) (i 3) (i 4))
      * diff pts coords (i 0) (i 1) (i 2) (i 3) (i 4) - lit_h

/-- The literal `1.0` is the real number one. -/
theorem lit_one_eq : lit_one = ((1 : ℝ) : EReal) := by
  simp [lit_one, Ideal.ofBits, Ideal.ieee, -EReal.coe_mul]
  norm_num

/-- The literal `−0.5` is a real number. -/
theorem lit_mhalf_real : ∃ a : ℝ, lit_mhalf = (a : EReal) := by
  refine ⟨-(1 / 2), ?_⟩
  simp [lit_mhalf, Ideal.ofBits, Ideal.ieee, -EReal.coe_mul]
  norm_num

/-- The law on real numbers: with `s ≠ 0`, folding `a / s²` and multiplying by `d` twice is multiplying `a` by
    `d / s` twice. -/
theorem fold_law (a s d : ℝ) (hs : s ≠ 0) (h : EReal) :
    (Ideal.div (a : EReal) ((s : EReal) * (s : EReal)) * (d : EReal)) * (d : EReal) - h
      = ((a : EReal) * Ideal.div (d : EReal) (s : EReal)) * Ideal.div (d : EReal) (s : EReal) - h := by
  have hss : s * s ≠ 0 := mul_ne_zero hs hs
  rw [← EReal.coe_mul s s, Ideal.div_coe hss, Ideal.div_coe hs, ← EReal.coe_mul, ← EReal.coe_mul, ← EReal.coe_mul,
    ← EReal.coe_mul, ← EReal.coe_mul, ← EReal.coe_mul]
  congr 2
  field_simp

/-- The two spellings agree wherever every input is a real number and no confidence and not the pitch is zero. -/
theorem factorForm_eq_quotientForm (pts : SPts.Idx → EReal) (conf : SConf.Idx → EReal) (coords : SCoords.Idx → EReal)
    (pitch : SPitch.Idx → EReal)
    (hpts : ∀ i, ∃ r : ℝ, pts i = (r : EReal)) (hconf : ∀ i, ∃ r : ℝ, conf i = (r : EReal) ∧ r ≠ 0)
    (hcoords : ∀ i, ∃ r : ℝ, coords i = (r : EReal)) (hpitch : ∀ i, ∃ r : ℝ, pitch i = (r : EReal) ∧ r ≠ 0) :
    factorForm pts conf coords pitch = quotientForm pts conf coords pitch := by
  funext i
  obtain ⟨a, ha⟩ := lit_mhalf_real
  obtain ⟨p, hp⟩ := hpts (ix2 (i 0) (i 4))
  obtain ⟨cf, hcf, hcf0⟩ := hconf (ix1 (i 0))
  obtain ⟨co, hco⟩ := hcoords (ix4 (i 1) (i 2) (i 3) (i 4))
  obtain ⟨pi, hpi, hpi0⟩ := hpitch (ix1 (0 : Fin 1))
  have hs : scale conf pitch (i 0) = ((cf * pi : ℝ) : EReal) := by
    unfold scale
    rw [hcf, hpi, lit_one_eq, ← EReal.coe_mul, ← EReal.coe_mul, one_mul]
  have hd : diff pts coords (i 0) (i 1) (i 2) (i 3) (i 4) = ((co - p : ℝ) : EReal) := by
    unfold diff
    rw [hco, hp, ← EReal.coe_sub]
  unfold factorForm quotientForm
  simp only [hs, hd, ha]
  exact fold_law a (cf * pi) (co - p) (mul_ne_zero hcf0 hpi0) lit_h

end Cert.Splat

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.Body.lean ====
/-
  What one grid point of the kernel leaves in its output block.

  A grid point holds a block of 32 points. It loads the block's tiled point coordinates `P : [32, 3072]` (row `n`
  repeats the three coordinates of point `n` along the flattened `(y, z, channel)` axis), the block's per-point
  factors `K : [32, 1]`, and the whole flattened coordinate table `C : [32, 3072]` (row `x`). The body walks the
  `x` axis in four chunks of eight rows; chunk `r` computes, for `n < 32`, `a < 8`, `j < 3072`,
  `((K n · (C (8r + a, j) − P (n, j))) · (C (8r + a, j) − P (n, j))) − h` and stores it at rows `8r … 8r + 7` of
  the `[32, 32, 3072]` output block. The four stores tile the block, so the block ends as ONE function of its index
  `(n, x, j)`: `((K n · (C (x, j) − P (n, j))) · (C (x, j) − P (n, j))) − h`.
-/
import proofs.«167658_j8933531976016_2_alg».proof.Proof.Gen.KernelIdeal.Frame
import proofs.«167658_j8933531976016_2_alg».proof.Proof.Spec
import proofs.«167658_j8933531976016_2_alg».proof.Proof.LibKeepdims3
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Splat

/-! ## The re-layings of the body, read at an index given by coordinates -/

/-- An `[8, 3072]` chunk viewed as `[1, 8, 3072]` reads `(0, a, j)` at `(a, j)`. -/
theorem chunk_as_one_matrix {α : Type} (v : S8x3072.Idx → α) (h : S8x3072.ShapeCasts S1x8x3072) (a : Fin 8) (j : Fin 3072) :
    shapeCast S1x8x3072 v h (ix3 (0 : Fin 1) a j) = v (ix2 a j) :=
  shapeCast_apply v h _ _ (by
    rw [Shape.rowMajor_val_three, Shape.rowMajor_val_two]
    show a.val * 3072 + j.val = ((0 : ℕ) * 8 + a.val) * 3072 + j.val
    omega)

/-- A `[32]` vector viewed as `[32, 1, 1]` reads `(n, 0, 0)` at `n`. -/
theorem vector_as_column {α : Type} (v : S32.Idx → α) (h : S32.ShapeCasts S32x1x1) (n : Fin 32) :
    shapeCast S32x1x1 v h (ix3 n (0 : Fin 1) (0 : Fin 1)) = v (ix1 n) :=
  shapeCast_apply v h _ _ (by
    rw [Shape.rowMajor_val_three, Shape.rowMajor_val_one]
    show n.val = (n.val * 1 + (0 : ℕ)) * 1 + (0 : ℕ)
    omega)

/-- A `[32, 1]` column viewed as a `[32]` vector reads `n` at `(n, 0)`. -/
theorem column_as_vector {α : Type} (v : S32x1.Idx → α) (h : S32x1.ShapeCasts S32) (n : Fin 32) :
    shapeCast S32 v h (ix1 n) = v (ix2 n (0 : Fin 1)) :=
  shapeCast_apply v h _ _ (by
    rw [Shape.rowMajor_val_two, Shape.rowMajor_val_one]
    show n.val * 1 + (0 : ℕ) = n.val
    omega)

/-- A `[32, 1, 1]` column repeated over `[32, 8, 3072]` reads `(n, a, j)` at `(n, 0, 0)`. -/
theorem column_repeated {α : Type} (v : S32x1x1.Idx → α) (h : S32x1x1.Broadcasts S32x8x3072) (n : Fin 32) (a : Fin 8) (j : Fin 3072) :
    broadcastTo S32x8x3072 v h (ix3 n a j) = v (ix3 n (0 : Fin 1) (0 : Fin 1)) := by
  refine broadcastTo_apply v h (ix3 n a j) (ix3 n (0 : Fin 1) (0 : Fin 1)) fun ax => ?_
  match ax with
  | ⟨0, _⟩ => show n.val = if (32 : Nat) = 1 then 0 else n.val; rw [if_neg (by decide)]
  | ⟨1, _⟩ => exact (if_pos rfl).symm
  | ⟨2, _⟩ => exact (if_pos rfl).symm

/-! ## One chunk's arithmetic at an index -/

/-- The value a chunk stores at `(n, a, j)`, from the factor `k` of point `n`, the chunk's coordinate `cv` and
    the point's tiled coordinate `pv`. -/
abbrev chunkVal (k cv pv : EReal) : EReal := (k * (cv - pv)) * (cv - pv) - lit_h

/-- The chunk's operations, written out over the loaded blocks, read at `(n, a, j)`. -/
theorem chunk_apply (v0 : Vec Ideal S32x3072 .f32) (v3 : FVec Ideal S32 .f32) (v7 : Vec Ideal S8x3072 .f32)
    (n : Fin 32) (a : Fin 8) (j : Fin 3072) :
    subf (mulf (mulf (broadcastTo S32x8x3072 (shapeCast S32x1x1 v3 shapeCasts_S32_S32x1x1) broadcasts_S32x1x1_S32x8x3072)
          (subf (broadcastTo S32x8x3072 (shapeCast S1x8x3072 (shapeCast S8x3072 v7 shapeCasts_S8x3072_S8x3072) shapeCasts_S8x3072_S1x8x3072) broadcasts_S1x8x3072_S32x8x3072)
            (broadcastTo S32x8x3072 (shapeCast S32x1x3072 v0 shapeCasts_S32x3072_S32x1x3072) broadcasts_S32x1x3072_S32x8x3072)))
        (subf (broadcastTo S32x8x3072 (shapeCast S1x8x3072 (shapeCast S8x3072 v7 shapeCasts_S8x3072_S8x3072) shapeCasts_S8x3072_S1x8x3072) broadcasts_S1x8x3072_S32x8x3072)
          (broadcastTo S32x8x3072 (shapeCast S32x1x3072 v0 shapeCasts_S32x3072_S32x1x3072) broadcasts_S32x1x3072_S32x8x3072)))
      (broadcast S32x8x3072 (Scalar.ofBits (F := Ideal) .f32 0x3F6B3F8E#32)) (ix3 n a j)
      = chunkVal (v3 (ix1 n)) (v7 (ix2 a j)) (v0 (ix2 n j)) := by
  rw [subf_apply, mulf_apply, mulf_apply, subf_apply, broadcast_apply, column_repeated, vector_as_column,
    Cert.Keepdims3.broadcastTo_1bc_abc_apply, chunk_as_one_matrix, shapeCast_self,
    Cert.Keepdims3.broadcastTo_a1c_abc_apply, Cert.Keepdims3.shapeCast_ac_a1c_apply]
  rfl

/-- The per-point factor the body uses is the factor column's entry. -/
theorem factor_vector_apply (v1 : Vec Ideal S32x1 .f32) (n : Fin 32) : k0_pay3 v1 (ix1 n) = v1 (ix2 n (0 : Fin 1)) := by
  unfold k0_pay3
  rw [column_as_vector, shapeCast_self]

theorem pay4_apply (v0 : Vec Ideal S32x3072 .f32) (v1 : Vec Ideal S32x1 .f32) (v7 : Vec Ideal S8x3072 .f32)
    (n : Fin 32) (a : Fin 8) (j : Fin 3072) :
    k0_pay4 v0 v1 v7 (ix3 n a j) = chunkVal (v1 (ix2 n (0 : Fin 1))) (v7 (ix2 a j)) (v0 (ix2 n j)) :=
  (chunk_apply v0 (k0_pay3 v1) v7 n a j).trans (by rw [factor_vector_apply])

theorem pay5_apply (v0 : Vec Ideal S32x3072 .f32) (v1 : Vec Ideal S32x1 .f32) (v7 : Vec Ideal S8x3072 .f32)
    (n : Fin 32) (a : Fin 8) (j : Fin 3072) :
    k0_pay5 v0 v1 v7 (ix3 n a j) = chunkVal (v1 (ix2 n (0 : Fin 1))) (v7 (ix2 a j)) (v0 (ix2 n j)) :=
  (chunk_apply v0 (k0_pay3 v1) v7 n a j).trans (by rw [factor_vector_apply])

theorem pay1_apply (v0 : Vec Ideal S32x3072 .f32) (v1 : Vec Ideal S32x1 .f32) (v7 : Vec Ideal S8x3072 .f32)
    (n : Fin 32) (a : Fin 8) (j : Fin 3072) :
    k0_pay1 v0 (k0_pay3 v1) v7 (ix3 n a j) = chunkVal (v1 (ix2 n (0 : Fin 1))) (v7 (ix2 a j)) (v0 (ix2 n j)) :=
  (chunk_apply v0 (k0_pay3 v1) v7 n a j).trans (by rw [factor_vector_apply])

theorem pay2_apply (v0 : Vec Ideal S32x3072 .f32) (v1 : Vec Ideal S32x1 .f32) (v7 : Vec Ideal S8x3072 .f32)
    (n : Fin 32) (a : Fin 8) (j : Fin 3072) :
    k0_pay2 v0 (k0_pay3 v1) v7 (ix3 n a j) = chunkVal (v1 (ix2 n (0 : Fin 1))) (v7 (ix2 a j)) (v0 (ix2 n j)) :=
  (chunk_apply v0 (k0_pay3 v1) v7 n a j).trans (by rw [factor_vector_apply])

end Cert.KernelIdeal.Body

end
-- ==== Proof.Block.lean ====
/-
  The output block of one grid point as ONE function of its index.

  The four chunk stores of the body tile the `[32, 32, 3072]` block along its middle axis: chunk `r` writes rows
  `8r … 8r + 7`, reading rows `8r … 8r + 7` of the coordinate table. Each store's value at its local index
  `(n, a, j)` is the block function at the block index `(n, 8r + a, j)`; since every block index lies in one of
  the four row bands, the block IS that function.
-/
import proofs.«167658_j8933531976016_2_alg».proof.Proof.Body

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.Splat

/-- The block a grid point leaves, from the point block's tiled coordinates `P`, its factor column `K` and the
    coordinate table `C`: at `(n, x, j)` it is `((K n · (C (x, j) − P (n, j))) · (C (x, j) − P (n, j))) − h`. -/
def blockFn (P : Vec Ideal S32x3072 .f32) (K : Vec Ideal S32x1 .f32) (C : Vec Ideal S32x3072 .f32) :
    Vec Ideal S32x32x3072 .f32 :=
  fun y => chunkVal (K (ix2 (y 0) (0 : Fin 1))) (C (ix2 (y 1) (y 2))) (P (ix2 (y 0) (y 2)))

theorem hz2 : (![0, 0] : Fin 2 → Nat) = fun _ => 0 := funext fun a => by fin_cases a <;> rfl

/-- The block function at the place where a row band starting at row `r` puts its local index `(n, a, j)`. -/
theorem blockFn_band (P : Vec Ideal S32x3072 .f32) (K : Vec Ideal S32x1 .f32) (C : Vec Ideal S32x3072 .f32)
    (r : ℕ) (hr : r + 8 ≤ 32) (inb : ∀ a, (![0, r, 0] : Fin 3 → ℕ) a + (![32, 8, 3072] : Fin 3 → ℕ) a ≤ S32x32x3072.size a)
    (n : Fin 32) (a : Fin 8) (j : Fin 3072) :
    blockFn P K C ((Rect.unit (s := S32x32x3072) ![0, r, 0] ![32, 8, 3072] inb).emb (ix3 n a j))
      = chunkVal (K (ix2 n (0 : Fin 1))) (C (ix2 (⟨r + a.val, by omega⟩ : Fin 32) j)) (P (ix2 n j)) := by
  have e0 : ((Rect.unit (s := S32x32x3072) ![0, r, 0] ![32, 8, 3072] inb).emb (ix3 n a j)) 0 = n :=
    Fin.ext (by show 0 + 1 * n.val = n.val; omega)
  have e1 : ((Rect.unit (s := S32x32x3072) ![0, r, 0] ![32, 8, 3072] inb).emb (ix3 n a j)) 1 = (⟨r + a.val, by omega⟩ : Fin 32) :=
    Fin.ext (by show r + 1 * a.val = r + a.val; omega)
  have e2 : ((Rect.unit (s := S32x32x3072) ![0, r, 0] ![32, 8, 3072] inb).emb (ix3 n a j)) 2 = j :=
    Fin.ext (by show 0 + 1 * j.val = j.val; omega)
  show chunkVal (K (ix2 (((Rect.unit (s := S32x32x3072) ![0, r, 0] ![32, 8, 3072] inb).emb (ix3 n a j)) 0) (0 : Fin 1)))
      (C (ix2 (((Rect.unit (s := S32x32x3072) ![0, r, 0] ![32, 8, 3072] inb).emb (ix3 n a j)) 1)
        (((Rect.unit (s := S32x32x3072) ![0, r, 0] ![32, 8, 3072] inb).emb (ix3 n a j)) 2)))
      (P (ix2 (((Rect.unit (s := S32x32x3072) ![0, r, 0] ![32, 8, 3072] inb).emb (ix3 n a j)) 0)
        (((Rect.unit (s := S32x32x3072) ![0, r, 0] ![32, 8, 3072] inb).emb (ix3 n a j)) 2))) = _
  rw [e0, e1, e2]

/-- Eight rows of the coordinate table from row `r` on, read at `(a, j)`, are the table at `(r + a, j)`. -/
theorem table_band (C : Vec Ideal S32x3072 .f32) (r : ℕ) (hr : r + 8 ≤ 32)
    (inb : ∀ a, (![r, 0] : Fin 2 → ℕ) a + (![8, 3072] : Fin 2 → ℕ) a ≤ S32x3072.size a) (a : Fin 8) (j : Fin 3072) :
    View.ld C (Rect.unit (s := S32x3072) ![r, 0] ![8, 3072] inb) (ix2 a j) = C (ix2 (⟨r + a.val, by omega⟩ : Fin 32) j) := by
  show C ((Rect.unit (s := S32x3072) ![r, 0] ![8, 3072] inb).emb (ix2 a j)) = _
  refine congrArg C (funext fun d => Fin.ext ?_)
  match d with
  | ⟨0, _⟩ => show r + 1 * a.val = r + a.val; omega
  | ⟨1, _⟩ => show 0 + 1 * j.val = j.val; omega

/-- What the body leaves in the output block, whatever staging buffers it runs on: the block function of the three
    loaded blocks. Each of the four stores restricts the block function to its row band, and the bands cover the
    block. -/
theorem out_eq (c : Dev nD) (i : grid0.Coords) (a1 : Memref sig .tc .vmem S32x3072 .f32) (h1 : a1.IsWhole)
    (a2 : Memref sig .tc .vmem S32x1 .f32) (h2 : a2.IsWhole) (a3 : Memref sig .tc .vmem S32x3072 .f32) (h3 : a3.IsWhole)
    (a4 : Memref sig .tc .vmem S32x32x3072 .f32) (h4 : a4.IsWhole)
    (x0 : Vec Ideal S32x3072 .f32) (x1 : Vec Ideal S32x1 .f32) (x2 : Vec Ideal S32x3072 .f32) :
    out0_A_3 c i a1 h1 a2 h2 a3 h3 a4 h4 x0 x1 x2 = blockFn x0 x1 x2 := by
  unfold out0_A_3
  rw [View.read_writes_eq_canon _ _ _ (cover0_A_3 c i a1 h1 a2 h2 a3 h3 a4 h4 x0 x1 x2)]
  funext y
  refine View.canon_apply_of_pieces (blockFn x0 x1 x2) _ ?_ y (cover0_A_3 c i a1 h1 a2 h2 a3 h3 a4 h4 x0 x1 x2 y)
  unfold kernelRun0_A
  dsimp only
  sl_unfold_words
  simp only [View.readAt_eq_ld, h1.read_unread, h2.read_unread, h3.read_unread,
    View.ld_unit_zero (S := S32x3072) hz2, View.ld_unit_zero (S := S32x1) hz2]
  intro p hp
  simp only [List.mem_cons, List.mem_nil_iff, or_false] at hp
  rcases hp with rfl | rfl | rfl | rfl
  · intro x
    obtain ⟨n, a, j, rfl⟩ : ∃ (n : Fin 32) (a : Fin 8) (j : Fin 3072), x = ix3 n a j := ⟨x 0, x 1, x 2, eq_ix3 x⟩
    refine (pay2_apply x0 x1 _ n a j).trans ?_
    exact (congrArg (fun t => chunkVal (x1 (ix2 n (0 : Fin 1))) t (x0 (ix2 n j))) (table_band x2 24 (by omega) (by decide) a j)).trans
      (blockFn_band x0 x1 x2 24 (by omega) (by decide) n a j).symm
  · intro x
    obtain ⟨n, a, j, rfl⟩ : ∃ (n : Fin 32) (a : Fin 8) (j : Fin 3072), x = ix3 n a j := ⟨x 0, x 1, x 2, eq_ix3 x⟩
    refine (pay1_apply x0 x1 _ n a j).trans ?_
    exact (congrArg (fun t => chunkVal (x1 (ix2 n (0 : Fin 1))) t (x0 (ix2 n j))) (table_band x2 16 (by omega) (by decide) a j)).trans
      (blockFn_band x0 x1 x2 16 (by omega) (by decide) n a j).symm
  · intro x
    obtain ⟨n, a, j, rfl⟩ : ∃ (n : Fin 32) (a : Fin 8) (j : Fin 3072), x = ix3 n a j := ⟨x 0, x 1, x 2, eq_ix3 x⟩
    refine (pay5_apply x0 x1 _ n a j).trans ?_
    exact (congrArg (fun t => chunkVal (x1 (ix2 n (0 : Fin 1))) t (x0 (ix2 n j))) (table_band x2 8 (by omega) (by decide) a j)).trans
      (blockFn_band x0 x1 x2 8 (by omega) (by decide) n a j).symm
  · intro x
    obtain ⟨n, a, j, rfl⟩ : ∃ (n : Fin 32) (a : Fin 8) (j : Fin 3072), x = ix3 n a j := ⟨x 0, x 1, x 2, eq_ix3 x⟩
    refine (pay4_apply x0 x1 _ n a j).trans ?_
    exact (congrArg (fun t => chunkVal (x1 (ix2 n (0 : Fin 1))) t (x0 (ix2 n j))) (table_band x2 0 (by omega) (by decide) a j)).trans
      (blockFn_band x0 x1 x2 0 (by omega) (by decide) n a j).symm

end Cert.KernelIdeal.Body

end
-- ==== Proof.Array.lean ====
/-
  The kernel's output array after all 32 grid points.

  Grid point `t` handles the points `32 t … 32 t + 31`: it stages rows `32 t …` of the tiled point coordinates
  and of the factor column, the whole coordinate table, and writes back block `t` (along the point axis) of the
  `[1024, 32, 3072]` output. What it writes back is the block of ONE function of the array index `(n, x, j)`:
  `((K n · (C (x, j) − P (n, j))) · (C (x, j) − P (n, j))) − h` over the arrays `K`, `C`, `P` as the region finds
  them. The 32 blocks tile the point axis, so the output array ends as that function.
-/
import proofs.«167658_j8933531976016_2_alg».proof.Proof.Block

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Splat

variable (m : (ℓ : Loc nD τ sig) → Buf (Elt Ideal) ℓ) (ρ : Dev nD → PrngReg)

/-- The output array as one function of its index, over the three staged arrays as the region finds them. -/
def arrayFn (c : Dev nD) : S1024x32x3072.Idx → EReal := fun i =>
  chunkVal (V m c main_v8 (ix2 (i 0) (0 : Fin 1))) (V m c main_v12 (ix2 (i 1) (i 2))) (V m c main_v11 (ix2 (i 0) (i 2)))

/-- The printed index maps, decided over the 32 grid points: the inputs' point blocks move with the output's, the
    coordinate table stays, and the output's block index is `(t, 0, 0)`. -/
theorem idx_facts : ∀ t : Fin cfg0.N, win0_0.index t (0 : Fin 2) = win0_3.index t (0 : Fin 3)
    ∧ win0_0.index t (1 : Fin 2) = 0
    ∧ win0_1.index t (0 : Fin 2) = win0_3.index t (0 : Fin 3)
    ∧ win0_1.index t (1 : Fin 2) = 0
    ∧ win0_2.index t (0 : Fin 2) = 0
    ∧ win0_2.index t (1 : Fin 2) = 0
    ∧ win0_3.index t (1 : Fin 3) = 0
    ∧ win0_3.index t (2 : Fin 3) = 0
    ∧ win0_3.index t (0 : Fin 3) ≤ 31 :=
  (by decide +kernel : ∀ t : Fin grid0.N, _)

/-- Every block along the point axis is some grid point's. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- What grid point `t` writes back is block `t` of the array function. -/
theorem flushed_eq (c : Dev nD) (t : Fin cfg0.N) :
    (dats m 0 c).flushed 3 t = ((cfg0.win 3).blk t).view.read (Elt Ideal) (arrayFn m c) := by
  show (cfg0.win 3).cut (grid0.coords t) ((dats m 0 c).after 3 t) = _
  rw [after0_3]
  unfold outsAt0
  refine (out_eq c (grid0.coords t) (ms0_0 t) (hs0_0 t) (ms0_1 t) (hs0_1 t) (ms0_2 t) (hs0_2 t) (ms0_3 t) (hs0_3 t)
    (iblk m c 0 t) (iblk m c 1 t) (iblk m c 2 t)).trans ?_
  obtain ⟨e0, e1, e2, e3, e4, e5, e6, e7, e8⟩ := idx_facts t
  funext y
  show chunkVal (V m c main_v8 (((cfg0.win 1).blk t).view.emb (ix2 (y 0) (0 : Fin 1))))
      (V m c main_v12 (((cfg0.win 2).blk t).view.emb (ix2 (y 1) (y 2))))
      (V m c main_v11 (((cfg0.win 0).blk t).view.emb (ix2 (y 0) (y 2))))
    = chunkVal (V m c main_v8 (ix2 ((((cfg0.win 3).blk t).view.emb y) 0) (0 : Fin 1)))
      (V m c main_v12 (ix2 ((((cfg0.win 3).blk t).view.emb y) 1) ((((cfg0.win 3).blk t).view.emb y) 2)))
      (V m c main_v11 (ix2 ((((cfg0.win 3).blk t).view.emb y) 0) ((((cfg0.win 3).blk t).view.emb y) 2)))
  have hy0 : (y 0).val < 32 := (y 0).isLt
  have hy1 : (y 1).val < 32 := (y 1).isLt
  have hy2 : (y 2).val < 3072 := (y 2).isLt
  have hK : ((cfg0.win 1).blk t).view.emb (ix2 (y 0) (0 : Fin 1))
      = ix2 ((((cfg0.win 3).blk t).view.emb y) 0) (0 : Fin 1) := by
    funext a; apply Fin.ext
    match a with
    | ⟨0, _⟩ => show win0_1.index t (0 : Fin 2) * 32 + 1 * (y 0).val = win0_3.index t (0 : Fin 3) * 32 + 1 * (y 0).val; omega
    | ⟨1, _⟩ => show win0_1.index t (1 : Fin 2) * 1 + 1 * 0 = 0; omega
  have hC : ((cfg0.win 2).blk t).view.emb (ix2 (y 1) (y 2))
      = ix2 ((((cfg0.win 3).blk t).view.emb y) 1) ((((cfg0.win 3).blk t).view.emb y) 2) := by
    funext a; apply Fin.ext
    match a with
    | ⟨0, _⟩ => show win0_2.index t (0 : Fin 2) * 32 + 1 * (y 1).val = win0_3.index t (1 : Fin 3) * 32 + 1 * (y 1).val; omega
    | ⟨1, _⟩ => show win0_2.index t (1 : Fin 2) * 3072 + 1 * (y 2).val = win0_3.index t (2 : Fin 3) * 3072 + 1 * (y 2).val; omega
  have hP : ((cfg0.win 0).blk t).view.emb (ix2 (y 0) (y 2))
      = ix2 ((((cfg0.win 3).blk t).view.emb y) 0) ((((cfg0.win 3).blk t).view.emb y) 2) := by
    funext a; apply Fin.ext
    match a with
    | ⟨0, _⟩ => show win0_0.index t (0 : Fin 2) * 32 + 1 * (y 0).val = win0_3.index t (0 : Fin 3) * 32 + 1 * (y 0).val; omega
    | ⟨1, _⟩ => show win0_0.index t (1 : Fin 2) * 3072 + 1 * (y 2).val = win0_3.index t (2 : Fin 3) * 3072 + 1 * (y 2).val; omega
  rw [hK, hC, hP]
  rfl

/-- An index of the output array is in grid point `t`'s block iff each coordinate is in the block's range. -/
theorem mem_blk (t : Fin cfg0.N) (i : S1024x32x3072.Idx) :
    i ∈ ((cfg0.win 3).blk t).view.set ↔ ∀ a : Fin 3, win0_3.index t a * S32x32x3072.size a ≤ (i a).val
      ∧ (i a).val < win0_3.index t a * S32x32x3072.size a + S32x32x3072.size a := by
  show i ∈ ((View.whole main_v13).slice (win0_3.rect t)).set ↔ _
  rw [View.set_slice_whole, Rect.mem_set_unit]
  exact Iff.rfl

/-- Every index of the output array lies in the block of the grid point that handles its point. -/
theorem covered (i : S1024x32x3072.Idx) :
    ∃ t : Fin cfg0.N, (cfg0.win 3).flush t = true ∧ i ∈ ((cfg0.win 3).blk t).view.set := by
  have hi0 : (i 0).val < 1024 := (i 0).isLt
  have hi1 : (i 1).val < 32 := (i 1).isLt
  have hi2 : (i 2).val < 3072 := (i 2).isLt
  obtain ⟨t, ht⟩ := idx_onto ⟨(i 0).val / 32, by omega⟩
  have q0 : win0_3.index t (0 : Fin 3) = (i 0).val / 32 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 32 ≤ (i 1).val ∧ (i 1).val < win0_3.index t (1 : Fin 3) * 32 + 32; omega
  | ⟨2, _⟩ => show win0_3.index t (2 : Fin 3) * 3072 ≤ (i 2).val ∧ (i 2).val < win0_3.index t (2 : Fin 3) * 3072 + 3072; omega

/-- The output array after the run is the array function. -/
theorem final (c : Dev nD) : (dats m 0 c).arrAt 3 cfg0.N = arrayFn m c :=
  (dats m 0 c).arrAt_eq_of_cover 3 (arrayFn m c) (fun t _ => flushed_eq m c t) covered

end Cert.KernelIdeal.Body

end
-- ==== Proof.HostPrefix.lean ====
/-
  The three arrays the call's input windows stage, each read at an index as a function of the program's arguments.

  Before the call the program computes, from the points `pts` (1024 × 3), the confidences `conf` (1024), the grid
  coordinates `coords` (32 × 32 × 32 × 3) and the pitch (one number):

  * the coordinates flattened to 32 rows of 3072: row `x`, column `y·96 + z·3 + ch` is `coords (x, y, z, ch)`
    (the two positions are the same row-major position);
  * the points tiled to 1024 rows of 3072: row `n`, column `y·96 + z·3 + ch` is `pts (n, ch)` — the column's
    row-major position `(y·32 + z, ch)` among 1024 × 3, whose first coordinate the tiling forgets;
  * the per-point factor `−½ / (s n · s n)` with `s n = (1 · conf n) · pitch`, as a column of 1024 rows.
-/
import proofs.«167658_j8933531976016_2_alg».proof.Proof.Gen.KernelIdeal.Frame
import proofs.«167658_j8933531976016_2_alg».proof.Proof.Spec
import Idealize.ShloMosaic.Lib.Pipeline.Value
import Idealize.ShloMosaic.Lib.ValueIdx
import Idealize.ShloMosaic.Lib.IdealHost
import Idealize.ShloMosaic.Lib.StableHlo.Run

noncomputable section

namespace Cert.KernelIdeal.HostPrefix

open Cert.KernelIdeal Cert.KernelIdeal.Gen Cert.Splat Idealize.ShloMosaic Idealize.ShloMosaic.ValueIdx
open Idealize.ShloMosaic.TcCoe Idealize.SL.Sem

variable (m : (ℓ : Loc nD τ sig) → Buf (Elt Ideal) ℓ) (c : Dev nD)

/-! ## The coordinates, flattened -/

/-- The flattened coordinates are the coordinate argument, reshaped. -/
theorem flatCoords_eq :
    (V m c main_v12 : S32x3072.Idx → EReal)
      = shapeCast S32x3072 (m ((c : Thread nD τ).loc main_arg2) : S32x32x32x3.Idx → EReal) shapeCasts_S32x32x32x3_S32x3072 := by
  show StableHlo.after hostOps0 (fun b => m (c, b)) (Proc.devRef .tc main_v12) = _
  after_results
  rfl

/-- Row `x`, column `y·96 + z·3 + ch` of the flattened coordinates is the coordinate `(x, y, z, ch)`. -/
theorem flatCoords_apply (x y z : Fin 32) (ch : Fin 3) :
    V m c main_v12 (ix2 x (⟨y.val * 96 + z.val * 3 + ch.val, by omega⟩ : Fin 3072))
      = m ((c : Thread nD τ).loc main_arg2) (ix4 x y z ch) := by
  rw [flatCoords_eq]
  refine shapeCast_apply _ _ _ (ix4 x y z ch) ?_
  rw [Shape.rowMajor_val_four, Shape.rowMajor_val_two]
  show ((x.val * 32 + y.val) * 32 + z.val) * 3 + ch.val = x.val * 3072 + (y.val * 96 + z.val * 3 + ch.val)
  omega

/-! ## The points, tiled -/

/-- The tiled points are the point argument given two unit axes, repeated 1024 times along the second of them, and
    flattened to rows of 3072. -/
theorem tiledPoints_eq :
    (V m c main_v11 : S1024x3072.Idx → EReal)
      = shapeCast S1024x3072
          (broadcastInDim S1x1024x1024x3 ![0, 1, 2, 3] bcast_S1x1024x1x3_S1x1024x1024x3_0_1_2_3
            (shapeCast S1x1024x1x3 (m ((c : Thread nD τ).loc main_arg0) : S1024x3.Idx → EReal) shapeCasts_S1024x3_S1x1024x1x3)
            : S1x1024x1024x3.Idx → EReal)
          shapeCasts_S1x1024x1024x3_S1024x3072 := by
  show StableHlo.after hostOps0 (fun b => m (c, b)) (Proc.devRef .tc main_v11) = _
  after_results
  rfl

/-- Row `n`, column `y·96 + z·3 + ch` of the tiled points is the point coordinate `(n, ch)`: the column is the
    row-major position of `(y·32 + z, ch)` among 1024 × 3, and the repetition forgets `y·32 + z`. -/
theorem tiledPoints_apply (n : Fin 1024) (y z : Fin 32) (ch : Fin 3) :
    V m c main_v11 (ix2 n (⟨y.val * 96 + z.val * 3 + ch.val, by omega⟩ : Fin 3072))
      = m ((c : Thread nD τ).loc main_arg0) (ix2 n ch) := by
  rw [tiledPoints_eq]
  refine (shapeCast_apply _ _ _ (ix4 (0 : Fin 1) n (⟨y.val * 32 + z.val, by omega⟩ : Fin 1024) ch) ?_).trans ?_
  · rw [Shape.rowMajor_val_four, Shape.rowMajor_val_two]
    show ((0 * 1024 + n.val) * 1024 + (y.val * 32 + z.val)) * 3 + ch.val = n.val * 3072 + (y.val * 96 + z.val * 3 + ch.val)
    omega
  refine (broadcastInDim_apply _ _ _ _ (ix4 (0 : Fin 1) n (0 : Fin 1) ch) (fun a => match a with
    | ⟨0, _⟩ => by show 0 = if (1 : Nat) = 1 then 0 else 0; rw [if_pos rfl]
    | ⟨1, _⟩ => by show n.val = if (1024 : Nat) = 1 then 0 else n.val; rw [if_neg (by decide)]
    | ⟨2, _⟩ => by show 0 = if (1 : Nat) = 1 then 0 else y.val * 32 + z.val; rw [if_pos rfl]
    | ⟨3, _⟩ => by show ch.val = if (3 : Nat) = 1 then 0 else ch.val; rw [if_neg (by decide)])).trans ?_
  refine shapeCast_apply _ _ _ (ix2 n ch) ?_
  rw [Shape.rowMajor_val_two, Shape.rowMajor_val_four]
  show n.val * 3 + ch.val = ((0 * 1024 + n.val) * 1 + 0) * 3 + ch.val
  omega

/-! ## The per-point factor -/

/-- The standard deviations as the program computes them, elementwise: the literal one broadcast, times the
    confidences, times the pitch read as a scalar and broadcast. -/
def scaleVec (conf : S1024.Idx → EReal) (pitch : S1.Idx → EReal) : S1024.Idx → EReal :=
  mulf (F := Ideal) (φ := .f32)
    (mulf (F := Ideal) (φ := .f32) (broadcastInDim S1024 ![] bcast_S_S1024 (constant (F := Ideal) S_ .f32 0x3F800000#32)) conf)
    (broadcastInDim S1024 ![] bcast_S_S1024 (shapeCast S_ pitch shapeCasts_S1_S_))

/-- At point `n` it is `(1 · conf n) · pitch`. -/
theorem scaleVec_apply (conf : S1024.Idx → EReal) (pitch : S1.Idx → EReal) (n : Fin 1024) :
    scaleVec conf pitch (ix1 n) = scale conf pitch n := by
  unfold scale scaleVec
  rw [mulf_apply, mulf_apply, broadcastInDim_scalar_apply, broadcastInDim_scalar_apply, constant_apply]
  congr 1
  refine shapeCast_apply _ _ _ (ix1 (0 : Fin 1)) ?_
  rw [Shape.rowMajor_val_one]
  have h := (S_.rowMajor ix0).isLt
  have h1 : S_.numel = 1 := by decide
  show 0 = (S_.rowMajor ix0).val
  omega

/-- The factor column is `−½` broadcast, divided by the squared standard deviations, reshaped to a column. -/
theorem factor_eq :
    (V m c main_v8 : S1024x1.Idx → EReal)
      = shapeCast S1024x1
          (Host.divf (F := Ideal) (φ := .f32)
            (broadcastInDim S1024 ![] bcast_S_S1024 (constant (F := Ideal) S_ .f32 0xBF000000#32))
            (mulf (F := Ideal) (φ := .f32)
              (scaleVec (m ((c : Thread nD τ).loc main_arg1)) (m ((c : Thread nD τ).loc main_arg3)))
              (scaleVec (m ((c : Thread nD τ).loc main_arg1)) (m ((c : Thread nD τ).loc main_arg3))))
            : S1024.Idx → EReal)
          shapeCasts_S1024_S1024x1 := by
  show StableHlo.after hostOps0 (fun b => m (c, b)) (Proc.devRef .tc main_v8) = _
  after_results
  rfl

/-- Row `n` of the factor column is `−½ / (s n · s n)`. -/
theorem factor_apply (n : Fin 1024) :
    V m c main_v8 (ix2 n (0 : Fin 1))
      = Ideal.div lit_mhalf (scale (m ((c : Thread nD τ).loc main_arg1)) (m ((c : Thread nD τ).loc main_arg3)) n
          * scale (m ((c : Thread nD τ).loc main_arg1)) (m ((c : Thread nD τ).loc main_arg3)) n) := by
  rw [factor_eq]
  refine (shapeCast_apply _ _ _ (ix1 n) ?_).trans ?_
  · rw [Shape.rowMajor_val_one, Shape.rowMajor_val_two]
    show n.val = n.val * 1 + 0
    omega
  rw [hostDivf_apply, mulf_apply, broadcastInDim_scalar_apply, constant_apply, scaleVec_apply]

end Cert.KernelIdeal.HostPrefix

end
-- ==== Proof.KernelRun.lean ====
/-
  The kernel program's run, read: its result is the factor form of the specification.

  After the call the program re-lays the `[1024, 32, 3072]` output as `[1024, 32, 32, 32, 3]`: entry
  `(n, x, y, z, ch)` is the output array at `(n, x, y·96 + z·3 + ch)`, the same row-major position. There the array
  function reads the factor of point `n`, the flattened coordinate `(x, y·96 + z·3 + ch)` — which is
  `coords (x, y, z, ch)` — and the tiled point coordinate `(n, y·96 + z·3 + ch)` — which is `pts (n, ch)`. So the
  result is `(((−½) / (s n · s n)) · d) · d − h` with `d = coords (x, y, z, ch) − pts (n, ch)`.
-/
import proofs.«167658_j8933531976016_2_alg».proof.Proof.Array
import proofs.«167658_j8933531976016_2_alg».proof.Proof.HostPrefix
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.Splat

variable (m : (ℓ : Loc nD τ sig) → Buf (Elt Ideal) ℓ) (ρ : Dev nD → PrngReg)

/-- The program's result: the output array re-laid with its last axis split into `(y, z, channel)`. -/
def result (c : Dev nD) : S1024x32x32x32x3.Idx → EReal :=
  shapeCast S1024x32x32x32x3 (arrayFn m c) shapeCasts_S1024x32x3072_S1024x32x32x32x3

/-- What the one host operation after the call leaves in the result buffer. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = arrayFn m c :=
    (Pipeline.withArrays_arr spec0 launch0.win.arr_inj c _ _ 3).trans (final m c)
  rw [e]
  rfl

/-- The result, entry by entry, is the factor form of the specification over the program's arguments. -/
theorem result_eq (c : Dev nD) :
    result m c = factorForm (m ((c : Thread nD τ).loc main_arg0)) (m ((c : Thread nD τ).loc main_arg1))
      (m ((c : Thread nD τ).loc main_arg2)) (m ((c : Thread nD τ).loc main_arg3)) := by
  funext i
  obtain ⟨n, x, y, z, ch, rfl⟩ : ∃ (n : Fin 1024) (x y z : Fin 32) (ch : Fin 3), i = ix5 n x y z ch :=
    ⟨i 0, i 1, i 2, i 3, i 4, eq_ix5 i⟩
  unfold result
  refine (shapeCast_apply _ _ _ (ix3 n x (⟨y.val * 96 + z.val * 3 + ch.val, by omega⟩ : Fin 3072)) ?_).trans ?_
  · rw [Shape.rowMajor_val_three, Shape.rowMajor_val_five]
    show (n.val * 32 + x.val) * 3072 + (y.val * 96 + z.val * 3 + ch.val)
      = (((n.val * 32 + x.val) * 32 + y.val) * 32 + z.val) * 3 + ch.val
    omega
  show chunkVal (V m c main_v8 (ix2 n (0 : Fin 1)))
      (V m c main_v12 (ix2 x (⟨y.val * 96 + z.val * 3 + ch.val, by omega⟩ : Fin 3072)))
      (V m c main_v11 (ix2 n (⟨y.val * 96 + z.val * 3 + ch.val, by omega⟩ : Fin 3072))) = _
  rw [HostPrefix.factor_apply, HostPrefix.flatCoords_apply, HostPrefix.tiledPoints_apply]
  rfl

/-- The run, read: every weakly fair execution of the program ends with the result buffer at the factor form of its
    arguments and the arguments unchanged. -/
theorem run : θ_run defs (onTc (τ := τ) (main (F := Ideal))) ⟨m, fun _ => 0, ρ⟩ fun r => ∀ c : Dev nD,
      r.2.mem ((c.tc : Thread nD τ).loc main_v14)
        = factorForm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v14 (Pipeline.mem_restRefs_of main_v14 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Body

end
-- ==== Proof.RefQuotient.lean ====
/-
  The reference's last stage is the specification's quotient form. Read at an entry (n, x, y, z, c), the reference
  computes ((−½) · (d / s)) · (d / s) − h with d = coords (x, y, z, c) − pts (n, c) and s = (1 · conf n) · pitch: every
  broadcast reads its operand at the entry's own coordinates on the axes it keeps, the reshape of the one-entry pitch to a
  scalar reads that one entry, and the arithmetic is the same term.
-/
import proofs.«167658_j8933531976016_2_alg».proof.Proof.Gen.ReferenceIdeal.Read
import proofs.«167658_j8933531976016_2_alg».proof.Proof.Spec

noncomputable section

namespace Cert.ReferenceIdeal.RefQuotient

open Idealize.ShloMosaic Idealize.ShloMosaic.ValueIdx Cert.ReferenceIdeal Cert.ReferenceIdeal.Read

/-- The grid coordinate read at (n, x, y, z, c): through the two broadcasts, entry (x, y, z, c). -/
theorem idx_coords (i : S1024x32x32x32x3.Idx) : idx_main_v6 (idx_main_v8 i) = ix4 (i 1) (i 2) (i 3) (i 4) := by
  funext a; match a with | ⟨0, _⟩ => rfl | ⟨1, _⟩ => rfl | ⟨2, _⟩ => rfl | ⟨3, _⟩ => rfl

/-- The point coordinate read at (n, x, y, z, c): through the two broadcasts, entry (n, c). -/
theorem idx_pts (i : S1024x32x32x32x3.Idx) : idx_main_v7 (idx_main_v9 i) = ix2 (i 0) (i 4) := by
  funext a; match a with | ⟨0, _⟩ => rfl | ⟨1, _⟩ => rfl

/-- The confidence read at (n, x, y, z, c): through the two broadcasts, entry n. -/
theorem idx_conf (i : S1024x32x32x32x3.Idx) : idx_main_v0 (idx_main_v11 i) = ix1 (i 0) := by
  funext a; match a with | ⟨0, _⟩ => rfl

/-- The pitch reshaped from one entry to a scalar is that entry: both have row-major position 0. -/
theorem pitch_read (x3 : FVec Ideal S1 .f32) (k : S_.Idx) :
    val_main_v3 (F := Ideal) x3 k = x3 (ix1 (0 : Fin 1)) := by
  unfold val_main_v3
  refine shapeCast_apply _ _ k (ix1 (0 : Fin 1)) ?_
  exact (Shape.rowMajor_val_one _).trans (Shape.rowMajorPi_zero _ _).symm

/-- The reference's last stage, entry by entry, is the divide-then-square spelling of the specification. -/
theorem ref_eq (x0 : FVec Ideal Cert.ReferenceIdeal.S1024x3 .f32) (x1 : FVec Ideal Cert.ReferenceIdeal.S1024 .f32)
    (x2 : FVec Ideal Cert.ReferenceIdeal.S32x32x32x3 .f32) (x3 : FVec Ideal Cert.ReferenceIdeal.S1 .f32) :
    Cert.ReferenceIdeal.Read.val_main_v17 (F := Ideal) x0 x1 x2 x3 = Cert.Splat.quotientForm x0 x1 x2 x3 := by
  funext i
  rw [val_main_v17_apply, val_main_v15_apply, val_main_v14_apply, val_main_v13_apply, val_main_cst_0_apply,
    val_main_v12_apply, val_main_v10_apply, val_main_v8_apply, val_main_v6_apply, val_main_v9_apply, val_main_v7_apply,
    val_main_v11_apply, val_main_v5_apply, val_main_v2_apply, val_main_v1_apply, val_main_cst_apply, val_main_v0_apply,
    val_main_v4_apply, pitch_read, val_main_v16_apply, val_main_cst_1_apply, idx_coords, idx_pts, idx_conf]
  rfl

end Cert.ReferenceIdeal.RefQuotient

end
-- ==== Proof.PreDecode.lean ====
/-
  The precondition, element by element. The precondition is one i1 scalar: the conjunction of six
  statements "every entry satisfies p", four of the form |x| < +∞ (one per input) and two of the form x ≠ 0 (the second and the
  fourth input). Each "every entry" is a reduction by and from 1 over all axes, so the scalar being 1 says every entry of every
  comparison is 1. Over the extended reals |x| = max x (-x) is +∞ at both infinities, so |x| < +∞ says x is a real number;
  a real r with (r : EReal) ≠ 0 is nonzero.
-/
import proofs.«167658_j8933531976016_2_alg».proof.Pre_finite_inputs
import Idealize.ShloMosaic.Lib.ReduceAll
import Idealize.ShloMosaic.Lib.ValueIdx
import Idealize.ShloMosaic.PureOps.Ideal.Laws

noncomputable section

namespace Cert.Splat

open Idealize.ShloMosaic

namespace PreDecode

/-- The rank-0 shape has one index. -/
theorem scalarIdx_subsingleton : Subsingleton (⟨0, ![]⟩ : Shape).Idx :=
  ⟨fun a b => funext fun d => d.elim0⟩

/-- A boolean's one-bit word is 1 exactly when the boolean is true. -/
theorem ofBool_eq_one (b : Bool) : BitVec.ofBool b = 1#1 ↔ b = true := by cases b <;> decide

/-- The word 0x7F800000 denotes +∞. -/
theorem ofBits_inf_f32 : Ideal.ofBits .f32 0x7F800000#32 = (⊤ : EReal) := by
  simp [Ideal.ofBits, Ideal.ieee]

/-- An extended real whose absolute value max x (-x) lies below +∞ is a real number:
    at ⊥ and at ⊤ the absolute value is ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry of |x| < +∞, the comparison against the splat of +∞ being all ones there: the entry is a real. -/
theorem real_of_olt {s : Shape} (x : FVec Ideal s .f32) (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = (r : EReal) := by
  apply real_of_abs_lt_top
  have h' : Ideal.cmp .olt (max (x i) (-(x i))) (Ideal.ofBits .f32 0x7F800000#32) = 1#1 := h
  rw [ofBits_inf_f32] at h'
  unfold Ideal.cmp at h'
  rw [ofBool_eq_one] at h'
  simpa using h'

/-- One entry of x ≠ 0, the comparison against the splat of 0 being all ones there. -/
theorem ne_zero_of_une {s : Shape} (x : FVec Ideal s .f32) (hb : (⟨0, ![]⟩ : Shape).BroadcastsInDim s (![] : Fin 0 → Fin s.rank)) (i : s.Idx)
    (h : cmpf .une x (broadcastInDim s ![] hb (constant (F := Ideal) ⟨0, ![]⟩ .f32 0x00000000#32)) i = 1#1) :
    x i ≠ (0 : EReal) := by
  have h' : Ideal.cmp .une (x i) (Ideal.ofBits .f32 0x00000000#32) = 1#1 := h
  rw [Ideal.ofBits_zero_f32] at h'
  unfold Ideal.cmp at h'
  rw [ofBool_eq_one] at h'
  simpa using h'

end PreDecode

open PreDecode Cert.Pre_finite_inputs in
theorem pre_decode [Cert.Pre_finite_inputs.Facts]
    (x0 : FVec Ideal Cert.Pre_finite_inputs.S1024x3 .f32) (x1 : FVec Ideal Cert.Pre_finite_inputs.S1024 .f32)
    (x2 : FVec Ideal Cert.Pre_finite_inputs.S32x32x32x3 .f32) (x3 : FVec Ideal Cert.Pre_finite_inputs.S1 .f32)
    (h : Cert.Pre_finite_inputs.fn (F := Ideal) x0 x1 x2 x3 = fun _ => 1#1) :
    (∀ i, ∃ r : ℝ, x0 i = (r : EReal)) ∧ (∀ i, ∃ r : ℝ, x1 i = (r : EReal) ∧ r ≠ 0)
      ∧ (∀ i, ∃ r : ℝ, x2 i = (r : EReal)) ∧ (∀ i, ∃ r : ℝ, x3 i = (r : EReal) ∧ r ≠ 0) := by
  haveI := scalarIdx_subsingleton
  have e := congrFun h ValueIdx.ix0
  dsimp only [Cert.Pre_finite_inputs.fn, Cert.Pre_finite_inputs.fn_part1] at e
  simp only [andi, IntOp.andi_eq_one] at e
  obtain ⟨⟨⟨⟨⟨h0, h1⟩, h2⟩, h3⟩, h1z⟩, h3z⟩ := e
  refine ⟨fun i => ?_, fun i => ?_, fun i => ?_, fun i => ?_⟩
  · exact real_of_olt x0 _ i (Host.reduce_andi_all _ _ _ _ _ h0 i)
  · obtain ⟨r, hr⟩ := real_of_olt x1 _ i (Host.reduce_andi_all _ _ _ _ _ h1 i)
    have hz := ne_zero_of_une x1 _ i (Host.reduce_andi_all _ _ _ _ _ h1z i)
    exact ⟨r, hr, fun hr0 => hz (by rw [hr, hr0, EReal.coe_zero])⟩
  · exact real_of_olt x2 _ i (Host.reduce_andi_all _ _ _ _ _ h2 i)
  · obtain ⟨r, hr⟩ := real_of_olt x3 _ i (Host.reduce_andi_all _ _ _ _ _ h3 i)
    have hz := ne_zero_of_une x3 _ i (Host.reduce_andi_all _ _ _ _ _ h3z i)
    exact ⟨r, hr, fun hr0 => hz (by rw [hr, hr0, EReal.coe_zero])⟩

end Cert.Splat

end
-- ==== Proof.lean ====
/-
  The certificate's five claims.

  The kernel computes, for every point `n`, voxel `(x, y, z)` and channel `ch`, the Gaussian log-density
  `−½ · (d / s)² − h` with `d = coords (x, y, z, ch) − pts (n, ch)` and `s = (1 · conf n) · pitch`, in the form
  `(((−½) / (s · s)) · d) · d − h`: the quotient `(−½) / (s · s)` is taken once per point before the call, and the
  call multiplies. The reference divides first: `((−½) · (d / s)) · (d / s) − h`. Over the extended reals the two
  agree wherever the inputs are real numbers and `s ≠ 0`; with `s = 0` and `d = 0` they do not (`0 / 0` against
  `(−½ / 0) · 0 · 0`), which is why the precondition asks that no confidence and not the pitch be zero — outside
  that domain the reference itself divides by zero.

  The three frames: the two kernel programs' are the generated frame runs; the reference's is its generated run with
  the result dropped. The idealization rewrote nothing, so `preserves` is trivial. For `algebraic` the common value
  is the reference's quotient form; the kernel's run ends at the factor form (the block a grid point leaves is one
  function of its index, the 32 blocks tile the output, the host lines before and after the call are re-layings read
  at an index), and the law between the two forms uses the precondition, decoded element by element.
-/
import proofs.«167658_j8933531976016_2_alg».proof.Defs
import proofs.«167658_j8933531976016_2_alg».proof.Proof.Gen.Kernel
import proofs.«167658_j8933531976016_2_alg».proof.Proof.Gen.Kernel.Skeleton
import proofs.«167658_j8933531976016_2_alg».proof.Proof.Gen.Kernel.Launch
import proofs.«167658_j8933531976016_2_alg».proof.Proof.Gen.Kernel.Points
import proofs.«167658_j8933531976016_2_alg».proof.Proof.Gen.Kernel.Frame
import proofs.«167658_j8933531976016_2_alg».proof.Proof.Gen.KernelIdeal
import proofs.«167658_j8933531976016_2_alg».proof.Proof.Gen.KernelIdeal.Skeleton
import proofs.«167658_j8933531976016_2_alg».proof.Proof.Gen.KernelIdeal.Launch
import proofs.«167658_j8933531976016_2_alg».proof.Proof.Gen.KernelIdeal.Points
import proofs.«167658_j8933531976016_2_alg».proof.Proof.Gen.KernelIdeal.Frame
import proofs.«167658_j8933531976016_2_alg».proof.Proof.Gen.ReferenceIdeal
import proofs.«167658_j8933531976016_2_alg».proof.Proof.Gen.ReferenceIdeal.Run
import proofs.«167658_j8933531976016_2_alg».proof.Proof.Gen.ReferenceIdeal.Read
import proofs.«167658_j8933531976016_2_alg».proof.Proof.Gen.Pre_finite_inputs
import proofs.«167658_j8933531976016_2_alg».proof.Proof.KernelRun
import proofs.«167658_j8933531976016_2_alg».proof.Proof.RefQuotient
import proofs.«167658_j8933531976016_2_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the quotient form of their (agreeing) arguments: the reference by its generated
    run read one operation at a time, the kernel by its run at the factor form and the law between the two forms
    under the precondition. -/
theorem algebraic : Cert.algebraic_KernelIdeal_ReferenceIdeal := by
  intro m ρ m' ρ' hpre hagree
  refine ⟨fun c => Cert.Splat.quotientForm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Body.run m ρ)
    obtain ⟨h0, h1, h2, h3⟩ := Cert.Splat.pre_decode _ _ _ _ (hpre c)
    exact Cert.Splat.factorForm_eq_quotientForm _ _ _ _ h0 h1 h2 h3
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefQuotient.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
